-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x384x384x3 : Shape := ⟨4, ![64, 384, 384, 3]⟩
abbrev S_ : Shape := ⟨0, ![]⟩

class Facts : Prop where
  bcast_S_S64x384x384x3 : S_.BroadcastsInDim S64x384x384x3 (![] : Fin 0 → Fin S64x384x384x3.rank)
  reducesTo_S64x384x384x3_S_d0_1_2_3 : S64x384x384x3.ReducesTo [0, 1, 2, 3] S_
  h_S_ : 0 < S_.numel

variable [Facts]

def fn {F : FTy → Type} [FloatOps F] (main_arg0 : FVec F S64x384x384x3 .f32) : IVec S_ 1 :=
  let main_v0 : FVec F S64x384x384x3 .f32 := Host.absf main_arg0
  let main_cst : FVec F S_ .f32 := constant S_ .f32 0x7F800000#32
  let main_v1 : FVec F S64x384x384x3 .f32 := broadcastInDim S64x384x384x3 ![] bcast_S_S64x384x384x3 main_cst
  let main_v2 : IVec S64x384x384x3 1 := cmpf .olt main_v0 main_v1
  let main_c : IVec S_ 1 := constantI S_ 1 1#1
  let main_v3 : IVec S_ 1 := (fun x v => Host.reduce IntOp.andi x v reducesTo_S64x384x384x3_S_d0_1_2_3 h_S_) main_v2 main_c
  main_v3
-- ==== Kernel.lean ====
abbrev S64x384x384x3 : Shape := ⟨4, ![64, 384, 384, 3]⟩
abbrev S64x384x1152 : Shape := ⟨3, ![64, 384, 1152]⟩
abbrev S64x576x768 : Shape := ⟨3, ![64, 576, 768]⟩
abbrev S4x384x1152 : Shape := ⟨3, ![4, 384, 1152]⟩
abbrev S4x576x768 : Shape := ⟨3, ![4, 576, 768]⟩
abbrev S1x16x1152 : Shape := ⟨3, ![1, 16, 1152]⟩
abbrev S16x1152 : Shape := ⟨2, ![16, 1152]⟩
abbrev S16x24x48 : Shape := ⟨3, ![16, 24, 48]⟩
abbrev S24x16x48 : Shape := ⟨3, ![24, 16, 48]⟩
abbrev S24x768 : Shape := ⟨2, ![24, 768]⟩
abbrev S1x24x768 : Shape := ⟨3, ![1, 24, 768]⟩

abbrev nBuf : Space → Nat
  | .hbm => 3
  | .vmem => 4
  | .smem => 0
  | _ => 0

abbrev bufTy : (tb : Table) → Fin (tcTables nBuf tb) → BufTy
  | .hbm, ⟨0, _⟩ => ⟨S64x384x384x3, .f32⟩
  | .hbm, ⟨1, _⟩ => ⟨S64x384x1152, .f32⟩
  | .hbm, ⟨2, _⟩ => ⟨S64x576x768, .f32⟩
  | .local _ .vmem, ⟨0, _⟩ => ⟨S4x384x1152, .f32⟩
  | .local _ .vmem, ⟨1, _⟩ => ⟨S4x384x1152, .f32⟩
  | .local _ .vmem, ⟨2, _⟩ => ⟨S4x576x768, .f32⟩
  | .local _ .vmem, ⟨3, _⟩ => ⟨S4x576x768, .f32⟩
  | _, _ => ⟨S64x384x384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c24_i32 : BitVec 32 := 24#32
  let v0 : BitVec 32 := Scalar.addi c0_i32 c24_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c16_i32 : BitVec 32 := 16#32
  let v4 : BitVec 32 := Scalar.muli arg3 c16_i32
  v4
def k0_off1 (k0_t1 : Fin k0_t1_loop.trips) : Fin 3 → Nat :=
  let c0 : Index := 0#32
  let c0_i32 : BitVec 32 := 0#32
  let c1_i32 : BitVec 32 := 1#32
  let arg3 : BitVec 32 := Scf.iv c0_i32 c1_i32 k0_t1
  let c16_i32 : BitVec 32 := 16#32
  let v4 : BitVec 32 := Scalar.muli arg3 c16_i32
  let v5 : BitVec 32 := v4
  let v6 : Index := Scalar.indexCast v5
  let c0_13 : Index := 0#32
  ![0, v6.toNat, 0]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c24_i32_14 : BitVec 32 := 24#32
  let v12 : BitVec 32 := Scalar.muli arg3 c24_i32_14
  v12
def k0_off2 (k0_t1 : Fin k0_t1_loop.trips) : Fin 3 → Nat :=
  let c0_15 : Index := 0#32
  let c0_i32 : BitVec 32 := 0#32
  let c1_i32 : BitVec 32 := 1#32
  let arg3 : BitVec 32 := Scf.iv c0_i32 c1_i32 k0_t1
  let c24_i32_14 : BitVec 32 := 24#32
  let v12 : BitVec 32 := Scalar.muli arg3 c24_i32_14
  let v13 : BitVec 32 := v12
  let v14 : Index := Scalar.indexCast v13
  let c0_16 : Index := 0#32
  ![0, v14.toNat, 0]
@[reducible] def k0_t2_loop : Scf.Loop 32 :=
  let c0_i32_1 : BitVec 32 := 0#32
  let c24_i32_2 : BitVec 32 := 24#32
  let v1 : BitVec 32 := Scalar.addi c0_i32_1 c24_i32_2
  let c1_i32_3 : BitVec 32 := 1#32
  ⟨c0_i32_1, v1, c1_i32_3⟩
def k0_mult3 (k0_t2 : Fin k0_t2_loop.trips) : BitVec 32 :=
  let c0_i32_1 : BitVec 32 := 0#32
  let c1_i32_3 : BitVec 32 := 1#32
  let arg3 : BitVec 32 := Scf.iv c0_i32_1 c1_i32_3 k0_t2
  let c16_i32 : BitVec 32 := 16#32
  let v4 : BitVec 32 := Scalar.muli arg3 c16_i32
  v4
def k0_off3 (k0_t2 : Fin k0_t2_loop.trips) : Fin 3 → Nat :=
  let c1 : Index := 1#32
  let c0_i32_1 : BitVec 32 := 0#32
  let c1_i32_3 : BitVec 32 := 1#32
  let arg3 : BitVec 32 := Scf.iv c0_i32_1 c1_i32_3 k0_t2
  let c16_i32 : BitVec 32 := 16#32
  let v4 : BitVec 32 := Scalar.muli arg3 c16_i32
  let v5 : BitVec 32 := v4
  let v6 : Index := Scalar.indexCast v5
  let c0 : Index := 0#32
  ![1, v6.toNat, 0]
def k0_mult4 (k0_t2 : Fin k0_t2_loop.trips) : BitVec 32 :=
  let c0_i32_1 : BitVec 32 := 0#32
  let c1_i32_3 : BitVec 32 := 1#32
  let arg3 : BitVec 32 := Scf.iv c0_i32_1 c1_i32_3 k0_t2
  let c24_i32_13 : BitVec 32 := 24#32
  let v12 : BitVec 32 := Scalar.muli arg3 c24_i32_13
  v12
def k0_off4 (k0_t2 : Fin k0_t2_loop.trips) : Fin 3 → Nat :=
  let c1_14 : Index := 1#32
  let c0_i32_1 : BitVec 32 := 0#32
  let c1_i32_3 : BitVec 32 := 1#32
  let arg3 : BitVec 32 := Scf.iv c0_i32_1 c1_i32_3 k0_t2
  let c24_i32_13 : BitVec 32 := 24#32
  let v12 : BitVec 32 := Scalar.muli arg3 c24_i32_13
  let v13 : BitVec 32 := v12
  let v14 : Index := Scalar.indexCast v13
  let c0_15 : Index := 0#32
  ![1, v14.toNat, 0]
@[reducible] def k0_t3_loop : Scf.Loop 32 :=
  let c0_i32_5 : BitVec 32 := 0#32
  let c24_i32_6 : BitVec 32 := 24#32
  let v2 : BitVec 32 := Scalar.addi c0_i32_5 c24_i32_6
  let c1_i32_7 : BitVec 32 := 1#32
  ⟨c0_i32_5, v2, c1_i32_7⟩
def k0_mult5 (k0_t3 : Fin k0_t3_loop.trips) : BitVec 32 :=
  let c0_i32_5 : BitVec 32 := 0#32
  let c1_i32_7 : BitVec 32 := 1#32
  let arg3 : BitVec 32 := Scf.iv c0_i32_5 c1_i32_7 k0_t3
  let c16_i32 : BitVec 32 := 16#32
  let v4 : BitVec 32 := Scalar.muli arg3 c16_i32
  v4
def k0_off5 (k0_t3 : Fin k0_t3_loop.trips) : Fin 3 → Nat :=
  let c2 : Index := 2#32
  let c0_i32_5 : BitVec 32 := 0#32
  let c1_i32_7 : BitVec 32 := 1#32
  let arg3 : BitVec 32 := Scf.iv c0_i32_5 c1_i32_7 k0_t3
  let c16_i32 : BitVec 32 := 16#32
  let v4 : BitVec 32 := Scalar.muli arg3 c16_i32
  let v5 : BitVec 32 := v4
  let v6 : Index := Scalar.indexCast v5
  let c0 : Index := 0#32
  ![2, v6.toNat, 0]
def k0_mult6 (k0_t3 : Fin k0_t3_loop.trips) : BitVec 32 :=
  let c0_i32_5 : BitVec 32 := 0#32
  let c1_i32_7 : BitVec 32 := 1#32
  let arg3 : BitVec 32 := Scf.iv c0_i32_5 c1_i32_7 k0_t3
  let c24_i32_13 : BitVec 32 := 24#32
  let v12 : BitVec 32 := Scalar.muli arg3 c24_i32_13
  v12
def k0_off6 (k0_t3 : Fin k0_t3_loop.trips) : Fin 3 → Nat :=
  let c2_14 : Index := 2#32
  let c0_i32_5 : BitVec 32 := 0#32
  let c1_i32_7 : BitVec 32 := 1#32
  let arg3 : BitVec 32 := Scf.iv c0_i32_5 c1_i32_7 k0_t3
  let c24_i32_13 : BitVec 32 := 24#32
  let v12 : BitVec 32 := Scalar.muli arg3 c24_i32_13
  let v13 : BitVec 32 := v12
  let v14 : Index := Scalar.indexCast v13
  let c0_15 : Index := 0#32
  ![2, v14.toNat, 0]
@[reducible] def k0_t4_loop : Scf.Loop 32 :=
  let c0_i32_9 : BitVec 32 := 0#32
  let c24_i32_10 : BitVec 32 := 24#32
  let v3 : BitVec 32 := Scalar.addi c0_i32_9 c24_i32_10
  let c1_i32_11 : BitVec 32 := 1#32
  ⟨c0_i32_9, v3, c1_i32_11⟩
def k0_mult7 (k0_t4 : Fin k0_t4_loop.trips) : BitVec 32 :=
  let c0_i32_9 : BitVec 32 := 0#32
  let c1_i32_11 : BitVec 32 := 1#32
  let arg3 : BitVec 32 := Scf.iv c0_i32_9 c1_i32_11 k0_t4
  let c16_i32 : BitVec 32 := 16#32
  let v4 : BitVec 32 := Scalar.muli arg3 c16_i32
  v4
def k0_off7 (k0_t4 : Fin k0_t4_loop.trips) : Fin 3 → Nat :=
  let c3 : Index := 3#32
  let c0_i32_9 : BitVec 32 := 0#32
  let c1_i32_11 : BitVec 32 := 1#32
  let arg3 : BitVec 32 := Scf.iv c0_i32_9 c1_i32_11 k0_t4
  let c16_i32 : BitVec 32 := 16#32
  let v4 : BitVec 32 := Scalar.muli arg3 c16_i32
  let v5 : BitVec 32 := v4
  let v6 : Index := Scalar.indexCast v5
  let c0 : Index := 0#32
  ![3, v6.toNat, 0]
def k0_mult8 (k0_t4 : Fin k0_t4_loop.trips) : BitVec 32 :=
  let c0_i32_9 : BitVec 32 := 0#32
  let c1_i32_11 : BitVec 32 := 1#32
  let arg3 : BitVec 32 := Scf.iv c0_i32_9 c1_i32_11 k0_t4
  let c24_i32_13 : BitVec 32 := 24#32
  let v12 : BitVec 32 := Scalar.muli arg3 c24_i32_13
  v12
def k0_off8 (k0_t4 : Fin k0_t4_loop.trips) : Fin 3 → Nat :=
  let c3_14 : Index := 3#32
  let c0_i32_9 : BitVec 32 := 0#32
  let c1_i32_11 : BitVec 32 := 1#32
  let arg3 : BitVec 32 := Scf.iv c0_i32_9 c1_i32_11 k0_t4
  let c24_i32_13 : BitVec 32 := 24#32
  let v12 : BitVec 32 := Scalar.muli arg3 c24_i32_13
  let v13 : BitVec 32 := v12
  let v14 : Index := Scalar.indexCast v13
  let c0_15 : Index := 0#32
  ![3, v14.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x384x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x576x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x384x384x3_S64x384x1152 : S64x384x384x3.ShapeCasts S64x384x1152
  h_S1x16x1152 : 0 < S1x16x1152.numel
  shapeCasts_S1x16x1152_S16x1152 : S1x16x1152.ShapeCasts S16x1152
  shapeCasts_S16x1152_S16x24x48 : S16x1152.ShapeCasts S16x24x48
  transposes_S16x24x48_p1_0_2_S24x16x48 : S16x24x48.Transposes [1, 0, 2] S24x16x48
  shapeCasts_S24x16x48_S24x768 : S24x16x48.ShapeCasts S24x768
  h_S1x24x768 : 0 < S1x24x768.numel
  shapeCasts_S1x24x768_S24x768 : S1x24x768.ShapeCasts S24x768
  shapeCasts_S24x768_S1x24x768 : S24x768.ShapeCasts S1x24x768
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x1152.size a ≤ S4x384x1152.size a
  k0_mult2_dvd : ∀ k0_t1 : Fin k0_t1_loop.trips, 24 ∣ (k0_mult2 k0_t1).toNat
  k0_off2_inb : ∀ k0_t1 : Fin k0_t1_loop.trips, ∀ a, (k0_off2 k0_t1) a + S1x24x768.size a ≤ S4x576x768.size a
  k0_t2_ok : k0_t2_loop.OK
  k0_mult3_dvd : ∀ k0_t2 : Fin k0_t2_loop.trips, 16 ∣ (k0_mult3 k0_t2).toNat
  k0_off3_inb : ∀ k0_t2 : Fin k0_t2_loop.trips, ∀ a, (k0_off3 k0_t2) a + S1x16x1152.size a ≤ S4x384x1152.size a
  k0_mult4_dvd : ∀ k0_t2 : Fin k0_t2_loop.trips, 24 ∣ (k0_mult4 k0_t2).toNat
  k0_off4_inb : ∀ k0_t2 : Fin k0_t2_loop.trips, ∀ a, (k0_off4 k0_t2) a + S1x24x768.size a ≤ S4x576x768.size a
  k0_t3_ok : k0_t3_loop.OK
  k0_mult5_dvd : ∀ k0_t3 : Fin k0_t3_loop.trips, 16 ∣ (k0_mult5 k0_t3).toNat
  k0_off5_inb : ∀ k0_t3 : Fin k0_t3_loop.trips, ∀ a, (k0_off5 k0_t3) a + S1x16x1152.size a ≤ S4x384x1152.size a
  k0_mult6_dvd : ∀ k0_t3 : Fin k0_t3_loop.trips, 24 ∣ (k0_mult6 k0_t3).toNat
  k0_off6_inb : ∀ k0_t3 : Fin k0_t3_loop.trips, ∀ a, (k0_off6 k0_t3) a + S1x24x768.size a ≤ S4x576x768.size a
  k0_t4_ok : k0_t4_loop.OK
  k0_mult7_dvd : ∀ k0_t4 : Fin k0_t4_loop.trips, 16 ∣ (k0_mult7 k0_t4).toNat
  k0_off7_inb : ∀ k0_t4 : Fin k0_t4_loop.trips, ∀ a, (k0_off7 k0_t4) a + S1x16x1152.size a ≤ S4x384x1152.size a
  k0_mult8_dvd : ∀ k0_t4 : Fin k0_t4_loop.trips, 24 ∣ (k0_mult8 k0_t4).toNat
  k0_off8_inb : ∀ k0_t4 : Fin k0_t4_loop.trips, ∀ a, (k0_off8 k0_t4) a + S1x24x768.size a ≤ S4x576x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x384x1152.size a ≤ S64x384x1152.size a
  hwx0_0 : ∀ i : grid0.Coords, EltTy.bits .f32 = 32 ∨ (Rect.block (s := S64x384x1152) S4x384x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x576x768.size a ≤ S64x576x768.size a
  hwx0_1 : ∀ i : grid0.Coords, EltTy.bits .f32 = 32 ∨ (Rect.block (s := S64x576x768) S4x576x768.size (cc0_transform_1 i) (hinb0_1 i)).WholeWords (EltTy.packing .f32)

variable [Facts₀]

abbrev win0_0 : Pipeline.Window sig grid0 :=
  Pipeline.Window.ofSpec (Memref.whole main_v0) S4x384x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x576x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x384x384x3 : Shape := ⟨4, ![64, 384, 384, 3]⟩
abbrev S64x24x16x24x16x3 : Shape := ⟨6, ![64, 24, 16, 24, 16, 3]⟩
abbrev S64x24x24x16x16x3 : Shape := ⟨6, ![64, 24, 24, 16, 16, 3]⟩
abbrev S64x576x768 : Shape := ⟨3, ![64, 576, 768]⟩

abbrev nBuf : Space → Nat
  | .hbm => 4
  | .vmem => 0
  | .smem => 0
  | _ => 0

abbrev bufTy : (tb : Table) → Fin (tcTables nBuf tb) → BufTy
  | .hbm, ⟨0, _⟩ => ⟨S64x384x384x3, .f32⟩
  | .hbm, ⟨1, _⟩ => ⟨S64x24x16x24x16x3, .f32⟩
  | .hbm, ⟨2, _⟩ => ⟨S64x24x24x16x16x3, .f32⟩
  | .hbm, ⟨3, _⟩ => ⟨S64x576x768, .f32⟩
  | _, _ => ⟨S64x384x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S64x384x384x3_S64x24x16x24x16x3 : S64x384x384x3.ShapeCasts S64x24x16x24x16x3
  transposes_S64x24x16x24x16x3_S64x24x24x16x16x3_0_1_3_2_4_5 : S64x24x16x24x16x3.Transposes [0, 1, 3, 2, 4, 5] S64x24x24x16x16x3
  shapeCasts_S64x24x24x16x16x3_S64x576x768 : S64x24x24x16x16x3.ShapeCasts S64x576x768

variable [Facts₀]

class Facts : Prop extends Facts₀ where

variable [Facts]
-- ==== Proof.PatchSpec.lean ====
/-
  The specification. A batch of 64 images of 384 × 384 pixels and 3 channels is cut into 24 × 24 patches of 16 × 16
  pixels; patch (gh, gw) of image b becomes row gh·24 + gw of the result, and inside that row the patch is laid out
  row by row: entry pr·48 + pw·3 + ch is channel ch of pixel (pr, pw) of the patch, that is of pixel
  (gh·16 + pr, gw·16 + pw) of the image. Nothing is computed: every entry of the result is one entry of the input.

  With pixel and channel merged (an image row is then 1152 = 384·3 numbers, a patch row 48 = 16·3 of them) the same
  sentence reads: entry (b, r, l) of the result is entry (b, (r / 24)·16 + l / 48, (r % 24)·48 + l % 48) of the merged
  batch. This file states that function (`strips`, and `blockStrips` for four images at a time), proves that the
  reshape – transpose – reshape through rank six computes it (`patches_eq_strips`), and that one strip of 16 image
  rows re-laid as 24 patch rows (`stripPay`) is the four-image function's restriction to those rows (`strip_piece`).
  Everything here is about indices; the entries may be of any type.
-/
import Idealize.ShloMosaic.Lib.Pipeline.Value
import Idealize.ShloMosaic.Lib.ValueIdx
import Idealize.ShloMosaic.Lib.ValueLayout
import Idealize.ShloMosaic.Lib.ValueIdxRank6

noncomputable section

namespace Cert.PatchSpec

open Idealize.ShloMosaic Idealize.ShloMosaic.ValueIdx Idealize.ShloMosaic.Shape

/-! ## Shapes -/

/-- The images: batch, row, column, channel. -/
abbrev Img : Shape := ⟨4, ![64, 384, 384, 3]⟩
/-- The images with column and channel merged. -/
abbrev Rows : Shape := ⟨3, ![64, 384, 1152]⟩
/-- The patches: batch, patch, entry of the flattened patch. -/
abbrev Pat : Shape := ⟨3, ![64, 576, 768]⟩
/-- Batch, patch row, row in patch, patch column, column in patch, channel. -/
abbrev Split : Shape := ⟨6, ![64, 24, 16, 24, 16, 3]⟩
/-- The same with "row in patch" and "patch column" exchanged. -/
abbrev Swap : Shape := ⟨6, ![64, 24, 24, 16, 16, 3]⟩
/-- Four merged images, and their patches. -/
abbrev RowsB : Shape := ⟨3, ![4, 384, 1152]⟩
abbrev PatB : Shape := ⟨3, ![4, 576, 768]⟩
/-- One strip of 16 merged image rows, with and without its leading unit axis, and split into 24 patch-row pieces. -/
abbrev Strip1 : Shape := ⟨3, ![1, 16, 1152]⟩
abbrev Strip : Shape := ⟨2, ![16, 1152]⟩
abbrev StripSplit : Shape := ⟨3, ![16, 24, 48]⟩
/-- The strip's 24 patches: patch column, row in patch, position in the patch row; flattened; with a leading unit axis. -/
abbrev StripSwap : Shape := ⟨3, ![24, 16, 48]⟩
abbrev PatRows : Shape := ⟨2, ![24, 768]⟩
abbrev PatRows1 : Shape := ⟨3, ![1, 24, 768]⟩

/-! ## Where an entry of the result comes from -/

/-- Result row `r = gh·24 + gw` and entry `l = pr·48 + q` name image row `gh·16 + pr`: -/
def srcRow (r l : Nat) : Nat := r / 24 * 16 + l / 48
/-- and position `gw·48 + q` of that merged image row. -/
def srcLane (r l : Nat) : Nat := r % 24 * 48 + l % 48

theorem srcRow_lt {r l : Nat} (hr : r < 576) (hl : l < 768) : srcRow r l < 384 := by unfold srcRow; omega
theorem srcLane_lt {r l : Nat} (hr : r < 576) (hl : l < 768) : srcLane r l < 1152 := by unfold srcLane; omega

variable {α : Type}

/-- THE RESULT as a function of the merged batch: entry `(b, r, l)` is entry `(b, srcRow r l, srcLane r l)`. -/
def strips (v : Rows.Idx → α) : Pat.Idx → α := fun j =>
  v (ix3 (⟨(j 0).val, (j 0).isLt⟩ : Fin 64)
    (⟨srcRow (j 1).val (j 2).val, srcRow_lt (j 1).isLt (j 2).isLt⟩ : Fin 384)
    (⟨srcLane (j 1).val (j 2).val, srcLane_lt (j 1).isLt (j 2).isLt⟩ : Fin 1152))

/-- The same function of four merged images. -/
def blockStrips (v : RowsB.Idx → α) : PatB.Idx → α := fun j =>
  v (ix3 (⟨(j 0).val, (j 0).isLt⟩ : Fin 4)
    (⟨srcRow (j 1).val (j 2).val, srcRow_lt (j 1).isLt (j 2).isLt⟩ : Fin 384)
    (⟨srcLane (j 1).val (j 2).val, srcLane_lt (j 1).isLt (j 2).isLt⟩ : Fin 1152))

/-! ## The reshape – transpose – reshape through rank six is that function -/

/-- Splitting rows and columns into (patch, offset in patch), exchanging "row in patch" with "patch column" and
    flattening reads, at `(b, r, l)`, the image at `(b, srcRow r l, srcLane r l / 3, srcLane r l % 3)`: the entry
    `strips` reads of the merged batch. -/
theorem patches_eq_strips (x : Img.Idx → α) (h0 : Img.ShapeCasts Rows) (h1 : Img.ShapeCasts Split)
    (h2 : Split.Transposes [0, 1, 3, 2, 4, 5] Swap) (h3 : Swap.ShapeCasts Pat) :
    shapeCast Pat (transpose Swap [0, 1, 3, 2, 4, 5] (shapeCast Split x h1) h2) h3 = strips (shapeCast Rows x h0) := by
  funext j
  obtain ⟨b, r, l, rfl⟩ : ∃ (b : Fin 64) (r : Fin 576) (l : Fin 768), j = ix3 b r l := ⟨j 0, j 1, j 2, eq_ix3 j⟩
  have hb := b.isLt; have hr := r.isLt; have hl := l.isLt
  -- the six coordinates of the entry: patch row, patch column, row in patch, column in patch, channel
  let gh : Fin 24 := ⟨r.val / 24, by omega⟩
  let gw : Fin 24 := ⟨r.val % 24, by omega⟩
  let pr : Fin 16 := ⟨l.val / 48, by omega⟩
  let pw : Fin 16 := ⟨l.val % 48 / 3, by omega⟩
  let ch : Fin 3 := ⟨l.val % 3, by omega⟩
  -- the image entry both sides read
  let k : Img.Idx := ix4 b (⟨r.val / 24 * 16 + l.val / 48, by omega⟩ : Fin 384)
    (⟨r.val % 24 * 16 + l.val % 48 / 3, by omega⟩ : Fin 384) ch
  have hL : shapeCast Pat (transpose Swap [0, 1, 3, 2, 4, 5] (shapeCast Split x h1) h2) h3 (ix3 b r l) = x k := by
    refine (shapeCast_apply _ h3 (ix3 b r l) (ix6 b gh gw pr pw ch) ?_).trans ?_
    · rw [rowMajor_val_six, rowMajor_val_three]
      show ((((b.val * 24 + r.val / 24) * 24 + r.val % 24) * 16 + l.val / 48) * 16 + l.val % 48 / 3) * 3 + l.val % 3
        = (b.val * 576 + r.val) * 768 + l.val
      omega
    refine (transpose_apply [0, 1, 3, 2, 4, 5] _ h2 (ix6 b gh gw pr pw ch) (ix6 b gh pr gw pw ch) (fun a => match a with
      | ⟨0, _⟩ => rfl | ⟨1, _⟩ => rfl | ⟨2, _⟩ => rfl | ⟨3, _⟩ => rfl | ⟨4, _⟩ => rfl | ⟨5, _⟩ => rfl)).trans ?_
    refine shapeCast_apply x h1 (ix6 b gh pr gw pw ch) k ?_
    rw [rowMajor_val_four, rowMajor_val_six]
    show ((b.val * 384 + (r.val / 24 * 16 + l.val / 48)) * 384 + (r.val % 24 * 16 + l.val % 48 / 3)) * 3 + l.val % 3
      = ((((b.val * 24 + r.val / 24) * 16 + l.val / 48) * 24 + r.val % 24) * 16 + l.val % 48 / 3) * 3 + l.val % 3
    omega
  have hR : strips (shapeCast Rows x h0) (ix3 b r l) = x k := by
    unfold strips
    refine shapeCast_apply x h0 _ k ?_
    rw [rowMajor_val_four, rowMajor_val_three]
    show ((b.val * 384 + (r.val / 24 * 16 + l.val / 48)) * 384 + (r.val % 24 * 16 + l.val % 48 / 3)) * 3 + l.val % 3
      = (b.val * 384 + srcRow r.val l.val) * 1152 + srcLane r.val l.val
    unfold srcRow srcLane
    omega
  exact hL.trans hR.symm

/-! ## One strip of sixteen image rows, re-laid as twenty-four patch rows -/

/-- What is stored for one strip: its 16 rows of 1152 numbers cut into 24 pieces of 48, the pieces of one patch
    column gathered (row in patch after patch column), and each patch flattened to 768 numbers. -/
def stripPay (v : Strip1.Idx → α) (h1 : Strip1.ShapeCasts Strip) (h2 : Strip.ShapeCasts StripSplit)
    (h3 : StripSplit.Transposes [1, 0, 2] StripSwap) (h4 : StripSwap.ShapeCasts PatRows)
    (h5 : PatRows.ShapeCasts PatRows1) : PatRows1.Idx → α :=
  shapeCast PatRows1 (shapeCast PatRows (transpose StripSwap [1, 0, 2] (shapeCast StripSplit (shapeCast Strip v h1) h2) h3) h4) h5

/-- Patch `gw` of the strip, entry `q = pr·48 + q'`, is row `pr` of the strip at position `gw·48 + q'`. -/
theorem stripPay_apply (v : Strip1.Idx → α) (h1 : Strip1.ShapeCasts Strip) (h2 : Strip.ShapeCasts StripSplit)
    (h3 : StripSplit.Transposes [1, 0, 2] StripSwap) (h4 : StripSwap.ShapeCasts PatRows)
    (h5 : PatRows.ShapeCasts PatRows1) (u : Fin 1) (gw : Fin 24) (q : Fin 768) :
    stripPay v h1 h2 h3 h4 h5 (ix3 u gw q)
      = v (ix3 (0 : Fin 1) (⟨q.val / 48, by have := q.isLt; omega⟩ : Fin 16)
          (⟨gw.val * 48 + q.val % 48, by have := q.isLt; have := gw.isLt; omega⟩ : Fin 1152)) := by
  have hq := q.isLt; have hg := gw.isLt
  let pr : Fin 16 := ⟨q.val / 48, by omega⟩
  let qq : Fin 48 := ⟨q.val % 48, by omega⟩
  let w : Fin 1152 := ⟨gw.val * 48 + q.val % 48, by omega⟩
  unfold stripPay
  refine (shapeCast_ab_1ab_apply _ h5 u gw q).trans ?_
  refine (shapeCast_apply _ h4 (ix2 gw q) (ix3 gw pr qq) ?_).trans ?_
  · rw [rowMajor_val_three, rowMajor_val_two]
    show (gw.val * 16 + q.val / 48) * 48 + q.val % 48 = gw.val * 768 + q.val
    omega
  refine (transpose_apply [1, 0, 2] _ h3 (ix3 gw pr qq) (ix3 pr gw qq) (fun a => match a with
    | ⟨0, _⟩ => rfl | ⟨1, _⟩ => rfl | ⟨2, _⟩ => rfl)).trans ?_
  refine (shapeCast_apply _ h2 (ix3 pr gw qq) (ix2 pr w) ?_).trans ?_
  · rw [rowMajor_val_two, rowMajor_val_three]
    show q.val / 48 * 1152 + (gw.val * 48 + q.val % 48) = (q.val / 48 * 24 + gw.val) * 48 + q.val % 48
    omega
  exact shapeCast_1ab_ab_apply v h1 pr w

/-- THE STRIP IS A PIECE OF THE FOUR-IMAGE FUNCTION. Strip `k` of image `bb` of a block `X` of four merged
    images is its rows `16k … 16k + 15`; re-laid, it is stored in rows `24k … 24k + 23` of image `bb` of the
    result block: at every entry of those rows the stored value is `blockStrips X` there. -/
theorem strip_piece (X : RowsB.Idx → α) (bb k : Nat) (hbb : bb < 4) (hk : k < 24)
    (offI offO : Fin 3 → Nat) (hI : offI = ![bb, 16 * k, 0]) (hO : offO = ![bb, 24 * k, 0])
    (inbI : ∀ a, offI a + Strip1.size a ≤ RowsB.size a) (inbO : ∀ a, offO a + PatRows1.size a ≤ PatB.size a)
    (h1 : Strip1.ShapeCasts Strip) (h2 : Strip.ShapeCasts StripSplit)
    (h3 : StripSplit.Transposes [1, 0, 2] StripSwap) (h4 : StripSwap.ShapeCasts PatRows)
    (h5 : PatRows.ShapeCasts PatRows1) (x : PatRows1.Idx) :
    stripPay (fun y => X ((Rect.unit (s := RowsB) offI Strip1.size inbI).idx y)) h1 h2 h3 h4 h5 x
      = blockStrips X ((Rect.unit (s := PatB) offO PatRows1.size inbO).emb x) := by
  subst hI; subst hO
  obtain ⟨u, gw, q, rfl⟩ : ∃ (u : Fin 1) (gw : Fin 24) (q : Fin 768), x = ix3 u gw q := ⟨x 0, x 1, x 2, eq_ix3 x⟩
  have hu : u.val = 0 := by omega
  have hq := q.isLt; have hg := gw.isLt
  refine (stripPay_apply _ h1 h2 h3 h4 h5 u gw q).trans ?_
  unfold blockStrips
  show X _ = X _
  refine congrArg X (funext fun a => Fin.ext ?_)
  match a with
  | ⟨0, _⟩ => show bb + 1 * 0 = bb + 1 * u.val; omega
  | ⟨1, _⟩ =>
    show 16 * k + 1 * (q.val / 48) = srcRow (24 * k + 1 * gw.val) (0 + 1 * q.val)
    unfold srcRow; omega
  | ⟨2, _⟩ =>
    show 0 + 1 * (gw.val * 48 + q.val % 48) = srcLane (24 * k + 1 * gw.val) (0 + 1 * q.val)
    unfold srcLane; omega

end Cert.PatchSpec

end
-- ==== Proof.BlockPatches.lean ====
/-
  What one grid point leaves in its output block. The body handles the block's four images one after the other, each
  by a loop over the image's 24 strips of 16 rows: trip k of the loop for image bb loads rows 16k … 16k + 15 of that
  image, re-lays them as 24 patch rows and stores them in rows 24k … 24k + 23 of image bb of the output block. So
  every store is the restriction of ONE function of the input block — `PatchSpec.blockStrips` — to the rows it
  writes, the 96 stores tile the output block, and the block ends holding that function.
-/
import proofs.«164348_j19318762897712_2_alg».proof.Proof.Gen.KernelIdeal.Frame
import proofs.«164348_j19318762897712_2_alg».proof.Proof.PatchSpec

set_option maxRecDepth 16384

noncomputable section

namespace Cert.KernelIdeal.Block

open Cert.KernelIdeal Cert.KernelIdeal.Gen Cert.PatchSpec
open Idealize.ShloMosaic Idealize.ShloMosaic.TcCoe Idealize.SL.Sem

variable {F : FTy → Type} [FloatOps F]

/-! ## Lists built trip by trip -/

/-- A list grown one trip at a time (`pb (n + 1)` is trip `n`'s elements in front of `pb n`, for the trips that
    exist) holds only elements of some trip: a property of every trip's elements is a property of all of them. -/
theorem forall_mem_of_trips {β : Type} (P : β → Prop) (trips : Nat) (tripL : Fin trips → List β) (pb : Nat → List β)
    (h0 : pb 0 = []) (hs : ∀ n, pb (n + 1) = if h : n < trips then tripL ⟨n, h⟩ ++ pb n else pb n)
    (ht : ∀ k, ∀ p ∈ tripL k, P p) : ∀ n, ∀ p ∈ pb n, P p := by
  intro n
  induction n with
  | zero => intro p hp; rw [h0] at hp; exact absurd hp List.not_mem_nil
  | succ n ih =>
    intro p hp
    rw [hs n] at hp
    split at hp
    · rcases List.mem_append.mp hp with h | h
      · exact ht _ p h
      · exact ih p h
    · exact ih p hp

/-! ## One trip stores one strip -/

/-- Trip `k` of the loop for image 0: one store, through rows `24k … 24k + 23` of image 0 of the output block, of the
    re-laid strip loaded through rows `16k … 16k + 15` of image 0 of the input block. -/
theorem trip1_eq (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) (k : Fin k0_t1_loop.trips) :
    tripL_k0_t1 (F := F) 𝒱 c bd i arg1 harg1 arg2 harg2 X k
      = [⟨Rect.unit (s := S4x576x768) (k0_off2 k) S1x24x768.size (k0_off2_inb k),
          k0_pay1 (View.readAt (Elt F) arg1.view (Rect.unit (s := S4x384x1152) (k0_off1 k) S1x16x1152.size (k0_off1_inb k)).toLoadRect X)⟩] := by
  unfold tripL_k0_t1 trip_k0_t1
  rfl

/-- Trip `k` of the loop for image 1: one store, through rows `24k … 24k + 23` of image 1 of the output block, of the
    re-laid strip loaded through rows `16k … 16k + 15` of image 1 of the input block. -/
theorem trip2_eq (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) (k : Fin k0_t2_loop.trips) :
    tripL_k0_t2 (F := F) 𝒱 c bd i arg1 harg1 arg2 harg2 X k
      = [⟨Rect.unit (s := S4x576x768) (k0_off4 k) S1x24x768.size (k0_off4_inb k),
          k0_pay2 (View.readAt (Elt F) arg1.view (Rect.unit (s := S4x384x1152) (k0_off3 k) S1x16x1152.size (k0_off3_inb k)).toLoadRect X)⟩] := by
  unfold tripL_k0_t2 trip_k0_t2
  rfl

/-- Trip `k` of the loop for image 2: one store, through rows `24k … 24k + 23` of image 2 of the output block, of the
    re-laid strip loaded through rows `16k … 16k + 15` of image 2 of the input block. -/
theorem trip3_eq (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) (k : Fin k0_t3_loop.trips) :
    tripL_k0_t3 (F := F) 𝒱 c bd i arg1 harg1 arg2 harg2 X k
      = [⟨Rect.unit (s := S4x576x768) (k0_off6 k) S1x24x768.size (k0_off6_inb k),
          k0_pay3 (View.readAt (Elt F) arg1.view (Rect.unit (s := S4x384x1152) (k0_off5 k) S1x16x1152.size (k0_off5_inb k)).toLoadRect X)⟩] := by
  unfold tripL_k0_t3 trip_k0_t3
  rfl

/-- Trip `k` of the loop for image 3: one store, through rows `24k … 24k + 23` of image 3 of the output block, of the
    re-laid strip loaded through rows `16k … 16k + 15` of image 3 of the input block. -/
theorem trip4_eq (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) (k : Fin k0_t4_loop.trips) :
    tripL_k0_t4 (F := F) 𝒱 c bd i arg1 harg1 arg2 harg2 X k
      = [⟨Rect.unit (s := S4x576x768) (k0_off8 k) S1x24x768.size (k0_off8_inb k),
          k0_pay4 (View.readAt (Elt F) arg1.view (Rect.unit (s := S4x384x1152) (k0_off7 k) S1x16x1152.size (k0_off7_inb k)).toLoadRect X)⟩] := by
  unfold tripL_k0_t4 trip_k0_t4
  rfl

/-! ## Every store of a loop is a piece of `blockStrips` -/

/-- Image 0's loop: whatever number of trips have run, each stored piece is `blockStrips` of the input block on its rows. -/
theorem loop1_pieces (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) :
    ∀ n, ∀ p ∈ pb_k0_t1 (F := F) 𝒱 c bd i arg1 harg1 arg2 harg2 X n,
      ∀ x : p.1.shape.Idx, p.2 x = blockStrips (arg1.view.read (Elt F) X) (p.1.emb x) := by
  refine forall_mem_of_trips _ k0_t1_loop.trips (tripL_k0_t1 (F := F) 𝒱 c bd i arg1 harg1 arg2 harg2 X) _ rfl (fun n => ?_) (fun k p hp => ?_)
  · rw [pb_k0_t1.eq_2]; unfold pb_k0_t1Step; rfl
  · rw [trip1_eq] at hp
    obtain rfl := List.mem_singleton.mp hp
    intro x
    have hk : k.val < 24 := Nat.lt_of_lt_of_le k.isLt k0_t1_abs.2.1
    exact strip_piece (arg1.view.read (Elt F) X) 0 k.val (by omega) hk _ _ (k0_off1_eq k) (k0_off2_eq k) (k0_off1_inb k) (k0_off2_inb k)
      shapeCasts_S1x16x1152_S16x1152 shapeCasts_S16x1152_S16x24x48 transposes_S16x24x48_p1_0_2_S24x16x48
      shapeCasts_S24x16x48_S24x768 shapeCasts_S24x768_S1x24x768 x

/-- Image 1's loop: whatever number of trips have run, each stored piece is `blockStrips` of the input block on its rows. -/
theorem loop2_pieces (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) :
    ∀ n, ∀ p ∈ pb_k0_t2 (F := F) 𝒱 c bd i arg1 harg1 arg2 harg2 X n,
      ∀ x : p.1.shape.Idx, p.2 x = blockStrips (arg1.view.read (Elt F) X) (p.1.emb x) := by
  refine forall_mem_of_trips _ k0_t2_loop.trips (tripL_k0_t2 (F := F) 𝒱 c bd i arg1 harg1 arg2 harg2 X) _ rfl (fun n => ?_) (fun k p hp => ?_)
  · rw [pb_k0_t2.eq_2]; unfold pb_k0_t2Step; rfl
  · rw [trip2_eq] at hp
    obtain rfl := List.mem_singleton.mp hp
    intro x
    have hk : k.val < 24 := Nat.lt_of_lt_of_le k.isLt k0_t2_abs.2.1
    exact strip_piece (arg1.view.read (Elt F) X) 1 k.val (by omega) hk _ _ (k0_off3_eq k) (k0_off4_eq k) (k0_off3_inb k) (k0_off4_inb k)
      shapeCasts_S1x16x1152_S16x1152 shapeCasts_S16x1152_S16x24x48 transposes_S16x24x48_p1_0_2_S24x16x48
      shapeCasts_S24x16x48_S24x768 shapeCasts_S24x768_S1x24x768 x

/-- Image 2's loop: whatever number of trips have run, each stored piece is `blockStrips` of the input block on its rows. -/
theorem loop3_pieces (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) :
    ∀ n, ∀ p ∈ pb_k0_t3 (F := F) 𝒱 c bd i arg1 harg1 arg2 harg2 X n,
      ∀ x : p.1.shape.Idx, p.2 x = blockStrips (arg1.view.read (Elt F) X) (p.1.emb x) := by
  refine forall_mem_of_trips _ k0_t3_loop.trips (tripL_k0_t3 (F := F) 𝒱 c bd i arg1 harg1 arg2 harg2 X) _ rfl (fun n => ?_) (fun k p hp => ?_)
  · rw [pb_k0_t3.eq_2]; unfold pb_k0_t3Step; rfl
  · rw [trip3_eq] at hp
    obtain rfl := List.mem_singleton.mp hp
    intro x
    have hk : k.val < 24 := Nat.lt_of_lt_of_le k.isLt k0_t3_abs.2.1
    exact strip_piece (arg1.view.read (Elt F) X) 2 k.val (by omega) hk _ _ (k0_off5_eq k) (k0_off6_eq k) (k0_off5_inb k) (k0_off6_inb k)
      shapeCasts_S1x16x1152_S16x1152 shapeCasts_S16x1152_S16x24x48 transposes_S16x24x48_p1_0_2_S24x16x48
      shapeCasts_S24x16x48_S24x768 shapeCasts_S24x768_S1x24x768 x

/-- Image 3's loop: whatever number of trips have run, each stored piece is `blockStrips` of the input block on its rows. -/
theorem loop4_pieces (𝒱 : Variants) (c : Dev nD) (bd : Option 𝒱.V) (i : grid0.Coords) (arg1 : Memref sig .tc .vmem S4x384x1152 .f32) (harg1 : arg1.IsWhole)
    (arg2 : Memref sig .tc .vmem S4x576x768 .f32) (harg2 : arg2.IsWhole) (X : BufTy.Contents (Elt F) arg1.view.ty) :
    ∀ n, ∀ p ∈ pb_k0_t4 (F := F) 𝒱 c bd i arg1 harg1 arg2 harg2 X n,
      ∀ x : p.1.shape.Idx, p.2 x = blockStrips (arg1.view.read (Elt F) X) (p.1.emb x) := by
  refine forall_mem_of_trips _ k0_t4_loop.trips (tripL_k0_t4 (F := F) 𝒱 c bd i arg1 harg1 arg2 harg2 X) _ rfl (fun n => ?_) (fun k p hp => ?_)
  · rw [pb_k0_t4.eq_2]; unfold pb_k0_t4Step; rfl
  · rw [trip4_eq] at hp
    obtain rfl := List.mem_singleton.mp hp
    intro x
    have hk : k.val < 24 := Nat.lt_of_lt_of_le k.isLt k0_t4_abs.2.1
    exact strip_piece (arg1.view.read (Elt F) X) 3 k.val (by omega) hk _ _ (k0_off7_eq k) (k0_off8_eq k) (k0_off7_inb k) (k0_off8_inb k)
      shapeCasts_S1x16x1152_S16x1152 shapeCasts_S16x1152_S16x24x48 transposes_S16x24x48_p1_0_2_S24x16x48
      shapeCasts_S24x16x48_S24x768 shapeCasts_S24x768_S1x24x768 x

/-! ## The block after the body -/

/-- Every piece the body's run stores — the four loops' pieces, image 3's first — is `blockStrips` of the input
    block `x0` on its rows. -/
theorem run_pieces (c : Dev nD) (i : grid0.Coords) (arg1 : Memref sig .tc .vmem S4x384x1152 .f32) (harg1 : arg1.IsWhole)
    (arg2 : Memref sig .tc .vmem S4x576x768 .f32) (harg2 : arg2.IsWhole) (x0 : Vec F S4x384x1152 .f32) :
    ∀ p ∈ (kernelRun0_A (F := F) c i arg1 harg1 arg2 harg2 x0).1,
      ∀ x : p.1.shape.Idx, p.2 x = blockStrips x0 (p.1.emb x) := by
  intro p hp
  unfold kernelRun0_A at hp
  dsimp only at hp
  simp only [List.mem_append] at hp
  have hX : arg1.view.read (Elt F) (harg1.unread x0) = x0 := harg1.read_unread x0
  rcases hp with hp | hp | hp | hp
  · have h := loop4_pieces Variants.none c none i arg1 harg1 arg2 harg2 (harg1.unread x0) _ p hp; rw [hX] at h; exact h
  · have h := loop3_pieces Variants.none c none i arg1 harg1 arg2 harg2 (harg1.unread x0) _ p hp; rw [hX] at h; exact h
  · have h := loop2_pieces Variants.none c none i arg1 harg1 arg2 harg2 (harg1.unread x0) _ p hp; rw [hX] at h; exact h
  · have h := loop1_pieces Variants.none c none i arg1 harg1 arg2 harg2 (harg1.unread x0) _ p hp; rw [hX] at h; exact h

/-- THE OUTPUT BLOCK after the body at any grid point, on any staging buffers: the patches of the four images of the
    input block. The pieces tile the block, and each is the function's restriction to its rows. -/
theorem out_eq (c : Dev nD) (i : grid0.Coords) (arg1 : Memref sig .tc .vmem S4x384x1152 .f32) (harg1 : arg1.IsWhole)
    (arg2 : Memref sig .tc .vmem S4x576x768 .f32) (harg2 : arg2.IsWhole) (x0 : Vec F S4x384x1152 .f32) :
    out0_A_1 (F := F) c i arg1 harg1 arg2 harg2 x0 = blockStrips x0 := by
  unfold out0_A_1
  rw [View.read_writes_eq_canon _ _ _ (cover0_A_1 c i arg1 harg1 arg2 harg2 x0)]
  funext y
  exact View.canon_apply_of_pieces (blockStrips x0) _ (run_pieces c i arg1 harg1 arg2 harg2 x0) y
    (cover0_A_1 c i arg1 harg1 arg2 harg2 x0 y)

end Cert.KernelIdeal.Block

end
-- ==== Proof.ArrayPatches.lean ====
/-
  From the blocks to the array. Grid point t handles images 4t … 4t + 3: its input block is those four merged
  images whole, its output block their patches whole. The function `PatchSpec.strips` treats every image by
  itself, so its restriction to images 4t … 4t + 3 is `PatchSpec.blockStrips` of the restriction of the merged
  batch to the same images — which is what the body leaves in the output block. The sixteen blocks tile the
  result, so after the run the result array is `strips` of the merged batch, and the merged batch is the argument
  with its last two axes flattened into one.
-/
import proofs.«164348_j19318762897712_2_alg».proof.Proof.Gen.KernelIdeal.Value
import proofs.«164348_j19318762897712_2_alg».proof.Proof.BlockPatches
import Idealize.ShloMosaic.Lib.StableHlo.Run

set_option maxRecDepth 16384

noncomputable section

namespace Cert.KernelIdeal.Patches

open Cert.KernelIdeal Cert.KernelIdeal.Gen Cert.PatchSpec
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The merged batch -/

/-- What the region finds in its input array: the argument with column and channel merged (the one host operation
    before the region). -/
theorem merged_eq (c : Dev nD) :
    (V m c main_v0 : S64x384x1152.Idx → Elt F .f32)
      = shapeCast S64x384x1152 (m ((c : Thread nD τ).loc main_arg0)) shapeCasts_S64x384x384x3_S64x384x1152 := by
  dsimp only [V, hostOps0]; after_results; rfl

/-! ## The index maps over the grid -/

/-- Both windows move along the batch axis together and stay at block 0 on the other two axes. -/
theorem idx_facts : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every group of four images is some point's. -/
theorem idx_onto : ∀ q : Fin 16, ∃ t : Fin cfg0.N, win0_1.index t = ![q.val, 0, 0] :=
  (by decide +kernel : ∀ q : Fin 16, ∃ t : Fin grid0.N, win0_1.index t = ![q.val, 0, 0])

/-! ## What a point writes back -/

/-- Point `t` writes back block `t` of `strips` of the merged batch: at entry `(bb, r, l)` of the block both sides
    are the merged batch at image `4·(block index) + bb`, row `srcRow r l`, position `srcLane r l`. -/
theorem flushed_eq (c : Dev nD) (t : Fin cfg0.N) :
    (dats m 0 c).flushed 1 t = ((cfg0.win 1).blk t).view.read (Elt F) (strips (V m c main_v0)) := by
  rw [Value.flushed1_A, Block.out_eq]
  obtain ⟨e0, e1, e2, e3, e4⟩ := idx_facts t
  funext j
  show blockStrips (iblk m c 0 t) ((cfg0.win 1).xinj (grid0.coords t) j)
    = strips (V m c main_v0) (((cfg0.win 1).blk t).view.emb j)
  unfold blockStrips strips iblk
  show V m c main_v0 _ = V m c main_v0 _
  refine congrArg (V m c main_v0) (funext fun a => Fin.ext ?_)
  match a with
  | ⟨0, _⟩ =>
    show win0_0.index t (0 : Fin 3) * 4 + 1 * (j 0).val = win0_1.index t (0 : Fin 3) * 4 + 1 * (j 0).val
    omega
  | ⟨1, _⟩ =>
    show win0_0.index t (1 : Fin 3) * 384 + 1 * srcRow (j 1).val (j 2).val
      = srcRow (win0_1.index t (1 : Fin 3) * 576 + 1 * (j 1).val) (win0_1.index t (2 : Fin 3) * 768 + 1 * (j 2).val)
    rw [e1, e3, e4]; simp only [Nat.zero_mul, Nat.zero_add, Nat.one_mul]
  | ⟨2, _⟩ =>
    show win0_0.index t (2 : Fin 3) * 1152 + 1 * srcLane (j 1).val (j 2).val
      = srcLane (win0_1.index t (1 : Fin 3) * 576 + 1 * (j 1).val) (win0_1.index t (2 : Fin 3) * 768 + 1 * (j 2).val)
    rw [e2, e3, e4]; simp only [Nat.zero_mul, Nat.zero_add, Nat.one_mul]

/-! ## The blocks tile the result -/

/-- An entry of the result is in point `t`'s block iff each coordinate is in the block's range on its axis. -/
theorem mem_blk (t : Fin cfg0.N) (i : S64x576x768.Idx) :
    i ∈ ((cfg0.win 1).blk t).view.set ↔ ∀ a : Fin 3, win0_1.index t a * S4x576x768.size a ≤ (i a).val
      ∧ (i a).val < win0_1.index t a * S4x576x768.size a + S4x576x768.size a := by
  show i ∈ ((View.whole main_v1).slice (win0_1.rect t)).set ↔ _
  rw [View.set_slice_whole, Rect.mem_set_unit]
  exact Iff.rfl

/-- Image `b` is in the block of the point whose block index is `b / 4`. -/
theorem cover (i : S64x576x768.Idx) :
    ∃ t : Fin cfg0.N, (cfg0.win 1).flush t = true ∧ i ∈ ((cfg0.win 1).blk t).view.set := by
  have hi0 : (i 0).val < 64 := (i 0).isLt
  have hi1 : (i 1).val < 576 := (i 1).isLt
  have hi2 : (i 2).val < 768 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 576 ≤ (i 1).val ∧ (i 1).val < win0_1.index t (1 : Fin 3) * 576 + 576
    omega
  | ⟨2, _⟩ =>
    show win0_1.index t (2 : Fin 3) * 768 ≤ (i 2).val ∧ (i 2).val < win0_1.index t (2 : Fin 3) * 768 + 768
    omega

/-! ## The result array, and the run -/

/-- After the run the result array is the patches of the merged batch. -/
theorem final (c : Dev nD) : (dats m 0 c).arrAt 1 cfg0.N = strips (V m c main_v0) :=
  (dats m 0 c).arrAt_eq_of_cover 1 (strips (V m c main_v0)) (fun t _ => flushed_eq m c t) cover

/-- Every weakly fair execution of the program terminates with the result array at `strips` of the argument with
    column and channel merged, and the argument unchanged. -/
theorem run : θ_run defs (onTc (τ := τ) (main (F := F))) ⟨m, fun _ => 0, ρ⟩ fun r => ∀ c : Dev nD,
      r.2.mem ((c : Thread nD τ).loc main_v1)
        = strips (shapeCast S64x384x1152 (m ((c : Thread nD τ).loc main_arg0)) shapeCasts_S64x384x384x3_S64x384x1152)
      ∧ r.2.mem ((c : Thread nD τ).loc main_arg0) = m ((c : Thread nD τ).loc main_arg0) :=
  (θ_run defs _ _).mono (fun r h c =>
      ⟨(h c).1.trans ((final m c).trans (congrArg strips (merged_eq m c))), (h c).2⟩)
    (Value.run_blocks m ρ)

end Cert.KernelIdeal.Patches

end
-- ==== Proof.RefPatches.lean ====
/-
  The reference. It splits the rows and columns of every image into (patch, offset in patch), exchanges "row in patch"
  with "patch column", and flattens: by `PatchSpec.patches_eq_strips` that is `PatchSpec.strips` of the images with
  column and channel merged. Its run therefore ends with the result array at that function of the argument.
-/
import proofs.«164348_j19318762897712_2_alg».proof.Proof.Gen.ReferenceIdeal.Run
import proofs.«164348_j19318762897712_2_alg».proof.Proof.PatchSpec

noncomputable section

namespace Cert.ReferenceIdeal.Patches

open Cert.ReferenceIdeal Cert.ReferenceIdeal.Gen Cert.PatchSpec
open Idealize.ShloMosaic Idealize.ShloMosaic.TcCoe Idealize.SL.Sem

variable {F : FTy → Type} [FloatOps F]

/-- Every weakly fair execution of the reference terminates with its result at `strips` of the argument with column
    and channel merged (`h0`: 384 · 3 = 1152, the merge keeps the number of entries), and the argument unchanged. -/
theorem run (m : (ℓ : Loc nD τ sig) → Buf (Elt F) ℓ) (ρ : Dev nD → PrngReg) (h0 : Img.ShapeCasts Rows) :
    θ_run defs (onTc (τ := τ) (main (F := F))) ⟨m, fun _ => 0, ρ⟩ fun r => ∀ c : Dev nD,
      r.2.mem ((c.tc : Thread nD τ).loc main_v2) = strips (shapeCast Rows (m ((c.tc : Thread nD τ).loc main_arg0)) h0)
      ∧ r.2.mem ((c.tc : Thread nD τ).loc main_arg0) = m ((c.tc : Thread nD τ).loc main_arg0) :=
  (θ_run defs _ _).mono (fun _ h c =>
      ⟨(h c).1.trans (patches_eq_strips (m ((c.tc : Thread nD τ).loc main_arg0)) h0
          shapeCasts_S64x384x384x3_S64x24x16x24x16x3 transposes_S64x24x16x24x16x3_S64x24x24x16x16x3_0_1_3_2_4_5
          shapeCasts_S64x24x24x16x16x3_S64x576x768), (h c).2⟩)
    (Value.run m ρ)

end Cert.ReferenceIdeal.Patches

end
-- ==== Proof.lean ====
/-
  The kernel cuts a batch of 64 images (384 × 384 pixels, 3 channels) into 24 × 24 patches of 16 × 16 pixels and lays
  every patch out flat, 768 numbers per patch, 576 patches per image; the reference does the same by one reshape to
  rank six, one exchange of two axes and one reshape back. No number is computed on either side: every entry of the
  result is one entry of the input, and the claim is that both programs pick the same one.

  The kernel first merges column and channel (an image row becomes 1152 = 384·3 numbers) and then works four images at
  a time: for each image, strip after strip of 16 rows is cut into 24 pieces of 48 numbers per row, the pieces of one
  patch are gathered, and the 24 flattened patches are stored as 24 consecutive result rows. Entry (b, r, l) of the
  result is therefore entry (b, (r / 24)·16 + l / 48, (r % 24)·48 + l % 48) of the merged batch
  (Proof/PatchSpec.lean, `strips`); Proof/BlockPatches.lean shows that this is what one grid point leaves in its
  block, Proof/ArrayPatches.lean that the sixteen blocks make up the whole result, Proof/RefPatches.lean that the
  reference's three operations compute the same function. The equality holds entry by entry for entries of any kind,
  so nothing is asked of the inputs: the precondition is not used.
  The three programs' runs terminate without a fault and leave the argument as it was: for the two kernel programs
  that is the generated frame, for the reference its generated run. The idealized kernel is the kernel's own text
  (no operation was rewritten), so `preserves` has nothing to state.
-/
import proofs.«164348_j19318762897712_2_alg».proof.Defs
import proofs.«164348_j19318762897712_2_alg».proof.Proof.Gen.Kernel
import proofs.«164348_j19318762897712_2_alg».proof.Proof.Gen.Kernel.Frame
import proofs.«164348_j19318762897712_2_alg».proof.Proof.Gen.KernelIdeal
import proofs.«164348_j19318762897712_2_alg».proof.Proof.Gen.KernelIdeal.Frame
import proofs.«164348_j19318762897712_2_alg».proof.Proof.Gen.KernelIdeal.Value
import proofs.«164348_j19318762897712_2_alg».proof.Proof.Gen.ReferenceIdeal
import proofs.«164348_j19318762897712_2_alg».proof.Proof.Gen.ReferenceIdeal.Run
import proofs.«164348_j19318762897712_2_alg».proof.Proof.Gen.Pre_finite_inputs
import proofs.«164348_j19318762897712_2_alg».proof.Proof.ArrayPatches
import proofs.«164348_j19318762897712_2_alg».proof.Proof.RefPatches
import Idealize.ShloMosaic.Adequacy
import Idealize.ShloMosaic.Init

noncomputable section

namespace Cert.Proof

open Idealize.ShloMosaic Idealize.SL.Sem

/-- The kernel as printed runs and leaves the images as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves the images as they were: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

/-- From the same images both programs end with the same array of patches: each is `PatchSpec.strips` of the images
    with column and channel merged. -/
theorem algebraic : Cert.algebraic_KernelIdeal_ReferenceIdeal := by
  intro m ρ m' ρ' _ hagree
  refine ⟨_, Cert.KernelIdeal.Patches.run (F := Ideal) m ρ, ?_⟩
  refine (θ_run Cert.ReferenceIdeal.defs _ _).mono (fun _ h c => ⟨(h c).1.trans ?_, (h c).2⟩)
    (Cert.ReferenceIdeal.Patches.run (F := Ideal) m' ρ' Cert.KernelIdeal.Gen.shapeCasts_S64x384x384x3_S64x384x1152)
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
